-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S64x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S128x64 : Shape := ⟨2, ![128, 64]⟩
abbrev S1x64 : Shape := ⟨2, ![1, 64]⟩
abbrev S5000x64 : Shape := ⟨2, ![5000, 64]⟩
abbrev S5000x1 : Shape := ⟨2, ![5000, 1]⟩
abbrev S5000x128 : Shape := ⟨2, ![5000, 128]⟩

abbrev nBuf : Space → Nat
  | .hbm => 50
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x64, .f32⟩
  | .hbm, ⟨29, _⟩ => ⟨S50000x64, .f32⟩
  | .hbm, ⟨30, _⟩ => ⟨S50000x64, .bf16⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .bf16⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | .hbm, ⟨45, _⟩ => ⟨S50000x1, .f32⟩
  | .hbm, ⟨46, _⟩ => ⟨S128x64, .f32⟩
  | .hbm, ⟨47, _⟩ => ⟨S64, .f32⟩
  | .hbm, ⟨48, _⟩ => ⟨S1x64, .f32⟩
  | .hbm, ⟨49, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S128x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bitsLt_bf16_f32 : FTy.bits .bf16 < FTy.bits .f32
  bcast_S_S50000x64 : S_.BroadcastsInDim S50000x64 (![] : Fin 0 → Fin S50000x64.rank)
  shapeCasts_S50000_S50000x1 : S50000.ShapeCasts S50000x1
  concatenates_S64x64_S64x64_S128x64_d0 : Shape.Concatenates [S64x64, S64x64] S128x64 0
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v25) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩

abbrev nBuf : Space → Nat
  | .hbm => 55
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x64, .f32⟩
  | .hbm, ⟨30, _⟩ => ⟨S50000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | .hbm, ⟨54, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.SumSplit.lean ====
/-
  Two facts about sums in an additive commutative monoid (used on the extended reals, where addition is
  commutative and associative at every value, the infinities included).

  * A sum over 128 consecutive positions is the sum over the first 64 plus the sum over the last 64: a contraction
    over the feature axis of `[agg · norm | x]` against `[W ; Wr]` stacked is the contraction of `agg · norm`
    against `W` plus that of `x` against `Wr`.
  * `(A + B) + (b + b') = (A + b) + (B + b')`: the two products added and then the two biases added is each
    product with its own bias, added.
-/
import Mathlib.Algebra.BigOperators.Fin

namespace Cert.GraphConv

/-- `∑ k < 128, f k = ∑ k < 64, f k + ∑ k < 64, f (64 + k)`. -/
theorem sum_128 {M : Type*} [AddCommMonoid M] (f : Fin 128 → M) :
    ∑ k : Fin 128, f k
      = (∑ k : Fin 64, f ⟨k.val, by have := k.isLt; omega⟩) + ∑ k : Fin 64, f ⟨64 + k.val, by have := k.isLt; omega⟩ := by
  show ∑ k : Fin (64 + 64), f k = _
  rw [Fin.sum_univ_add]
  rfl

/-- The two products added, then the two biases added, is each product with its own bias, added. -/
theorem add_pairs {M : Type*} [AddCommMonoid M] (A B b b' : M) : (A + B) + (b + b') = (A + b) + (B + b') :=
  add_add_add_comm A B b b'

end Cert.GraphConv
-- ==== Proof.Payload.lean ====
/-
  The kernel body's one stored value, read at a coordinate pair (p, q) of its [5000, 64] block, at the exact
  (extended-real) reading of the floats.

  The body scales row p of the aggregate block by the row's normalising factor, lays that scaled row and row p of the
  feature block side by side into one row of 128 entries, contracts it with column q of the 128 × 64 stacked weights
  and adds entry q of the one bias row. The contraction over 128 positions is the contraction of the scaled aggregate
  row over the first 64 weight rows plus the contraction of the feature row over the last 64; changes of float format
  are the identity here.
-/
import proofs.«138084_j80693845557943_2_alg».proof.Proof.Gen.KernelIdeal.Skeleton
import proofs.«138084_j80693845557943_2_alg».proof.Proof.LibKeepdims
import proofs.«138084_j80693845557943_2_alg».proof.Proof.SumSplit
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The contraction's operand indices: output (p, q), position k ↦ left (p, k), right (k, q) -/

theorem lhs_0 (i : S5000x64.Idx) (r : dot_S5000x128_S128x64_S5000x64_1_0_0_1_n_n.contr.Idx) :
    (dot_S5000x128_S128x64_S5000x64_1_0_0_1_n_n.lhsIdx i r 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (r : dot_S5000x128_S128x64_S5000x64_1_0_0_1_n_n.contr.Idx) :
    (dot_S5000x128_S128x64_S5000x64_1_0_0_1_n_n.lhsIdx i r 1).val = (r ⟨0, by decide⟩).val :=
  dot_S5000x128_S128x64_S5000x64_1_0_0_1_n_n.lhsIdx_val_of_single rfl i r
theorem rhs_0 (i : S5000x64.Idx) (r : dot_S5000x128_S128x64_S5000x64_1_0_0_1_n_n.contr.Idx) :
    (dot_S5000x128_S128x64_S5000x64_1_0_0_1_n_n.rhsIdx i r 0).val = (r ⟨0, by decide⟩).val :=
  dot_S5000x128_S128x64_S5000x64_1_0_0_1_n_n.rhsIdx_val_of_single rfl i r
theorem rhs_1 (i : S5000x64.Idx) (r : dot_S5000x128_S128x64_S5000x64_1_0_0_1_n_n.contr.Idx) :
    (dot_S5000x128_S128x64_S5000x64_1_0_0_1_n_n.rhsIdx i r 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product into a zero accumulator, at (p, q): the sum over the 128 positions of row p times column q. -/
theorem matmul_at (L : FVec Ideal S5000x128 .bf16) (R : FVec Ideal S128x64 .bf16) (p : Fin 5000) (q : Fin 64) :
    matmul dot_S5000x128_S128x64_S5000x64_1_0_0_1_n_n none L R (constant (F := Ideal) S5000x64 .f32 0x00000000#32) (ix2 p q)
      = ∑ k : Fin 128, L (ix2 p k) * R (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## Two [5000, 64] blocks side by side: the first 64 entries of a row are the first block's, the last 64 the second's -/

theorem cat_left (a b : FVec Ideal S5000x64 .bf16) (p : Fin 5000) (k : Fin 64) :
    concatenate S5000x128 1 [⟨S5000x64, a⟩, ⟨S5000x64, b⟩] concatenates_S5000x64_S5000x64_S5000x128_d1
      (ix2 p ⟨k.val, by have := k.isLt; omega⟩) = a (ix2 p k) :=
  concatenate_pair_apply_left 1 a b concatenates_S5000x64_S5000x64_S5000x128_d1 _ rfl (ix2 p k)
    (fun d => match d with | ⟨0, _⟩ => rfl | ⟨1, _⟩ => rfl)

theorem cat_right (a b : FVec Ideal S5000x64 .bf16) (p : Fin 5000) (k : Fin 64) :
    concatenate S5000x128 1 [⟨S5000x64, a⟩, ⟨S5000x64, b⟩] concatenates_S5000x64_S5000x64_S5000x128_d1
      (ix2 p ⟨64 + k.val, by have := k.isLt; omega⟩) = b (ix2 p k) :=
  concatenate_pair_apply_right 1 a b concatenates_S5000x64_S5000x64_S5000x128_d1 _ rfl rfl (ix2 p k)
    (fun d => match d with | ⟨0, _⟩ => fun _ => rfl | ⟨1, _⟩ => fun h => absurd rfl h)
    (Nat.add_comm _ _)

/-! ## The stored value at (p, q) -/

/-- Entry (p, q) of the stored block: row p of the aggregate block scaled by the row's factor and contracted with the
    first 64 weight rows' column q, plus row p of the feature block contracted with the last 64 weight rows' column q,
    plus entry q of the bias row. -/
theorem pay_apply (v0 : Vec Ideal S5000x64 .f32) (v2 : Vec Ideal S5000x1 .f32) (v7 : Vec Ideal S5000x64 .f32)
    (v10 : Vec Ideal S128x64 .f32) (v14 : Vec Ideal S1x64 .f32) (p : Fin 5000) (q : Fin 64) :
    k0_pay1 (F := Ideal) v0 v2 v7 v10 v14 (ix2 p q)
      = ((∑ k : Fin 64, (v0 (ix2 p k) * v2 (ix2 p (0 : Fin 1))) * v10 (ix2 (⟨k.val, by have := k.isLt; omega⟩ : Fin 128) q))
          + ∑ k : Fin 64, v7 (ix2 p k) * v10 (ix2 (⟨64 + k.val, by have := k.isLt; omega⟩ : Fin 128) q))
        + v14 (ix2 (0 : Fin 1) q) := by
  unfold k0_pay1
  simp only [shapeCast_self]
  rw [addf_apply, matmul_at, broadcastTo_1b_ab_apply, Cert.GraphConv.sum_128]
  congr 1
  congr 1
  · refine Finset.sum_congr rfl fun k _ => ?_
    rw [cat_left, truncf_apply, truncf_apply, mulf_apply, Cert.LibKeepdims.broadcastTo_a1_ab_apply, shapeCast_self, shapeCast_self]
  · refine Finset.sum_congr rfl fun k _ => ?_
    rw [cat_right, truncf_apply, truncf_apply]

end Cert.KernelIdeal.Body

end
-- ==== Proof.Spec.lean ====
/-
  The layer, as one function of seven arrays, over the extended reals.

  Given the aggregated features `agg` (one row of 64 per node), a normalising factor `nd` per node, the features `x`,
  two 64 × 64 weight matrices `W`, `Wr` and two bias rows `b`, `br`, entry (p, q) of the result is

      (∑ₖ (agg[p,k] · nd[p]) · W[k,q] + b[q])  +  (∑ₖ x[p,k] · Wr[k,q] + br[q]).

  The fused arrangement computes instead

      (∑ₖ (agg[p,k] · nd[p]) · W[k,q]  +  ∑ₖ x[p,k] · Wr[k,q])  +  (b[q] + br[q]);

  the two are equal because addition of extended reals is commutative and associative (no finiteness is needed: no
  product is distributed over a sum and nothing is cancelled).
-/
import Idealize.ShloMosaic.PureOps.Ideal
import Idealize.ShloMosaic.Lib.ValueIdx
import proofs.«138084_j80693845557943_2_alg».proof.Proof.SumSplit

noncomputable section

namespace Cert.GraphConv

open Idealize.ShloMosaic Idealize.ShloMosaic.ValueIdx

/-- An `a × b` array of extended reals. -/
abbrev Mat (a b : ℕ) : Type := (⟨2, ![a, b]⟩ : Shape).Idx → EReal
/-- A length-`a` array of extended reals. -/
abbrev Col (a : ℕ) : Type := (⟨1, ![a]⟩ : Shape).Idx → EReal

/-- Entry (p, q) of the layer's result: the normalised aggregate row times `W` plus `b`, plus the feature row times
    `Wr` plus `br`. -/
def layerAt (agg : Mat 50000 64) (nd : Col 50000) (x : Mat 50000 64) (W : Mat 64 64) (b : Col 64) (Wr : Mat 64 64)
    (br : Col 64) (p : Fin 50000) (q : Fin 64) : EReal :=
  ((∑ k : Fin 64, (agg (ix2 p k) * nd (ix1 p)) * W (ix2 k q)) + b (ix1 q))
    + ((∑ k : Fin 64, x (ix2 p k) * Wr (ix2 k q)) + br (ix1 q))

/-- The layer's result as an array. -/
def layer (agg : Mat 50000 64) (nd : Col 50000) (x : Mat 50000 64) (W : Mat 64 64) (b : Col 64) (Wr : Mat 64 64)
    (br : Col 64) : Mat 50000 64 :=
  fun i => layerAt agg nd x W b Wr br (i 0) (i 1)

theorem layer_ix2 (agg : Mat 50000 64) (nd : Col 50000) (x : Mat 50000 64) (W : Mat 64 64) (b : Col 64) (Wr : Mat 64 64)
    (br : Col 64) (p : Fin 50000) (q : Fin 64) :
    layer agg nd x W b Wr br (ix2 p q) = layerAt agg nd x W b Wr br p q := rfl

/-- The fused arrangement — both products added first, then the two biases added — is the layer's entry. -/
theorem fused_eq_layerAt (agg : Mat 50000 64) (nd : Col 50000) (x : Mat 50000 64) (W : Mat 64 64) (b : Col 64)
    (Wr : Mat 64 64) (br : Col 64) (p : Fin 50000) (q : Fin 64) :
    ((∑ k : Fin 64, (agg (ix2 p k) * nd (ix1 p)) * W (ix2 k q)) + ∑ k : Fin 64, x (ix2 p k) * Wr (ix2 k q))
        + (b (ix1 q) + br (ix1 q))
      = layerAt agg nd x W b Wr br p q :=
  add_pairs _ _ _ _

end Cert.GraphConv

end
-- ==== Proof.BlockValue.lean ====
/-
  One grid point of the kernel, against the layer of Spec.lean.

  At a grid point the body sees a block of 5000 rows of the aggregate, of the features and of the normalising column,
  the whole stacked 128 × 64 weights and the whole bias row. If row p of the blocks is row P of the arrays, the first
  64 rows of the stacked weights are `W` and the last 64 are `Wr`, and the bias row is `b + br`, then entry (p, q) of
  what the body stores is entry (P, q) of the layer.
-/
import proofs.«138084_j80693845557943_2_alg».proof.Proof.Payload
import proofs.«138084_j80693845557943_2_alg».proof.Proof.Spec

noncomputable section

namespace Cert.KernelIdeal.Body

open Cert.KernelIdeal Cert.KernelIdeal.Gen Idealize.ShloMosaic Idealize.ShloMosaic.ValueIdx Cert.GraphConv

/-- The body's stored entry (p, q) is the layer's entry (P, q), when the blocks are the arrays' rows and the stacked
    operands are the two weight matrices and the sum of the two biases. -/
theorem block_value (x0 x1 : Vec Ideal S5000x64 .f32) (x2 : Vec Ideal S5000x1 .f32) (x3 : Vec Ideal S128x64 .f32)
    (x4 : Vec Ideal S1x64 .f32)
    (agg : Mat 50000 64) (nd : Col 50000) (x : Mat 50000 64) (W : Mat 64 64) (b : Col 64) (Wr : Mat 64 64) (br : Col 64)
    (p : Fin 5000) (q : Fin 64) (P : Fin 50000)
    (h0 : ∀ k : Fin 64, x0 (ix2 p k) = agg (ix2 P k))
    (h1 : ∀ k : Fin 64, x1 (ix2 p k) = x (ix2 P k))
    (h2 : x2 (ix2 p (0 : Fin 1)) = nd (ix1 P))
    (h3l : ∀ k : Fin 64, x3 (ix2 (⟨k.val, by have := k.isLt; omega⟩ : Fin 128) q) = W (ix2 k q))
    (h3r : ∀ k : Fin 64, x3 (ix2 (⟨64 + k.val, by have := k.isLt; omega⟩ : Fin 128) q) = Wr (ix2 k q))
    (h4 : x4 (ix2 (0 : Fin 1) q) = b (ix1 q) + br (ix1 q)) :
    k0_pay1 (F := Ideal) x0 x2 x1 x3 x4 (ix2 p q) = layerAt agg nd x W b Wr br P q := by
  rw [pay_apply, h2, h4]
  simp only [h0, h1, h3l, h3r]
  exact fused_eq_layerAt agg nd x W b Wr br P q

end Cert.KernelIdeal.Body

end
-- ==== Proof.WindowsPlain.lean ====
/-
  The stacked weights and the bias row, as the kernel's region finds them.

  Before the region the host lays the two 64 × 64 weight matrices one above the other into one 128 × 64 array
  (`W` in rows 0–63, `Wr` in rows 64–127), and adds the two bias vectors and re-shapes the sum to a row [1, 64].
-/
import proofs.«138084_j80693845557943_2_alg».proof.Proof.Gen.KernelIdeal.Frame
import proofs.«138084_j80693845557943_2_alg».proof.Proof.Gen.ReferenceIdeal.Read
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ)

set_option maxHeartbeats 2000000 in
set_option maxRecDepth 8192 in
/-- The fifth operand array of the region is the sum of the two bias vectors, as a row. -/
theorem V_bias (c : Dev nD) : (V m c main_v29 : S1x64.Idx → EReal)
    = (shapeCast S1x64 (addf (F := Ideal) (φ := .f32) (s := S64) (m ((c : Thread nD τ).loc main_arg4)) (m ((c : Thread nD τ).loc main_arg6)))
        shapeCasts_S64_S1x64 : S1x64.Idx → EReal) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  all_goals rfl

set_option maxHeartbeats 2000000 in
set_option maxRecDepth 8192 in
/-- The fourth operand array of the region is the two weight matrices, one above the other. -/
theorem V_weights (c : Dev nD) : (V m c main_v27 : S128x64.Idx → EReal)
    = concatenate S128x64 0 [⟨S64x64, m ((c : Thread nD τ).loc main_arg3)⟩, ⟨S64x64, m ((c : Thread nD τ).loc main_arg5)⟩]
        concatenates_S64x64_S64x64_S128x64_d0 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  all_goals rfl

end Cert.KernelIdeal.Hand

end
-- ==== Proof.Prefix.lean ====
/-
  What both programs compute before the dense layer, as plain functions of the features and the two edge lists.

  * `count e`: for every node, the number of edges whose list `e` names it (a scatter-add of ones into zeros).
  * `factor e`: the reciprocal square root of that count clamped below by 1.
  * `wrapped e`: an edge list with 50000 added to its negative entries.
  * `scaled x src`: the features with row n multiplied by `factor src` at n.
  * `aggregate x src dst`: the rows of `scaled x src` narrowed to the short float format, gathered at `wrapped src`,
    widened again, and scatter-added at `dst` into zeros.

  These are, operation by operation, the reference's stages of the same names' roles (its source and destination factors
  and its aggregate): the only difference is the narrowing and widening round the gather, which at the exact reading of
  the floats is the identity (a gather only moves entries).
-/
import proofs.«138084_j80693845557943_2_alg».proof.Proof.Gen.KernelIdeal
import proofs.«138084_j80693845557943_2_alg».proof.Proof.Gen.ReferenceIdeal.Read

noncomputable section

open Idealize.ShloMosaic

namespace Cert.KernelIdeal.Hand

open Cert.KernelIdeal Cert.KernelIdeal.Facts₀

/-- An array of floats of the given shape, read at the extended reals. -/
abbrev FArr (S : Shape) : Type := BufTy.Contents (Elt Ideal) (⟨S, EltTy.f32⟩ : BufTy)
/-- An array of 32-bit integers of the given shape. -/
abbrev IArr (S : Shape) : Type := BufTy.Contents (Elt Ideal) (⟨S, EltTy.i32⟩ : BufTy)

/-- For every node, how many entries of the edge list name it. -/
abbrev count (e : IArr S800000) : FArr S50000 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 e)
    (broadcastInDim S800000 ![] bcast_S_S800000 (constant (F := Ideal) S_ .f32 0x3F800000#32))

/-- The reciprocal square root of the count clamped below by 1. -/
abbrev factor (e : IArr S800000) : FArr S50000 :=
  Host.rsqrt (F := Ideal)
    (maximumf (F := Ideal) (broadcastInDim S50000 ![] bcast_S_S50000 (id (constant (F := Ideal) S_ .f32 0x3F800000#32))) (count e))

/-- An edge list with the number of nodes added to its negative entries. -/
abbrev wrapped (e : IArr S800000) : IArr S800000 :=
  select (cmpi .slt e (broadcastInDim S800000 ![] bcast_S_S800000 (constantI S_ 32 0#32)))
    (addi e (broadcastInDim S800000 ![] bcast_S_S800000 (constantI S_ 32 50000#32))) e

/-- The features with every row multiplied by its node's source factor. -/
abbrev scaled (x : FArr S50000x64) (src : IArr S800000) : FArr S50000x64 :=
  mulf (F := Ideal) (φ := .f32) (s := S50000x64) x
    (broadcastInDim S50000x64 ![0, 1] bcast_S50000x1_S50000x64_0_1 (broadcastInDim S50000x1 ![0] bcast_S50000_S50000x1_0 (factor src)))

/-- The scaled rows, narrowed, gathered at the source list, widened, and scatter-added at the destination list. -/
abbrev aggregate (x : FArr S50000x64) (src dst : IArr S800000) : FArr S50000x64 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (extf (F := Ideal) .f32
      (Host.gather gather_S50000x64_S800000x1_S800000x64_1_0_n_n_0_1_164
        (truncf (F := Ideal) .bf16 (scaled x src) bitsLt_bf16_f32)
        (broadcastInDim S800000x1 ![0] bcast_S800000_S800000x1_0 (wrapped src)))
      bitsLt_bf16_f32)

/-- Gathering rows of an array narrowed to the short float format, and widening what was gathered, is gathering rows of
    the array itself: at the exact reading both changes of format are the identity. -/
theorem gather_through_narrowing (Y : FVec Ideal S50000x64 .f32) (I : IArr S800000x1) :
    extf (F := Ideal) .f32
        (Host.gather gather_S50000x64_S800000x1_S800000x64_1_0_n_n_0_1_164 (truncf (F := Ideal) .bf16 Y bitsLt_bf16_f32) I)
        bitsLt_bf16_f32
      = (Host.gather gather_S50000x64_S800000x1_S800000x64_1_0_n_n_0_1_164 Y I : FVec Ideal S800000x64 .f32) :=
  funext fun _ => rfl

open Cert.ReferenceIdeal.Read in
/-- The factor of an edge list is the reference's destination-factor stage of that list. -/
theorem factor_eq_dst (e : IArr S800000) : factor e = val_main_v11 (F := Ideal) e := by
  unfold val_main_v11 val_main_v10 val_main_call1_v1 val_main_call1_v0 val_main_cst_3 val_main_v6 val_main_v4 val_main_cst_1
    val_main_v5 val_main_v0 val_main_cst
  rfl

open Cert.ReferenceIdeal.Read in
/-- The scaled features are the reference's scaled-feature stage. -/
theorem scaled_eq (x : FArr S50000x64) (src : IArr S800000) : scaled x src = val_main_v14 (F := Ideal) x src := by
  unfold val_main_v14 val_main_v13 val_main_v9 val_main_v8 val_main_v7 val_main_call0_v1 val_main_call0_v0 val_main_cst_2
    val_main_v3 val_main_v1 val_main_cst_0 val_main_v2 val_main_v0 val_main_cst
  rfl

open Cert.ReferenceIdeal.Read in
/-- The wrapped source list, as a column of indices, is the reference's index stage. -/
theorem wrapped_eq (src : IArr S800000) :
    (broadcastInDim S800000x1 ![0] bcast_S800000_S800000x1_0 (wrapped src) : IArr S800000x1) = val_main_v20 (F := Ideal) src := by
  unfold val_main_v20 val_main_v19 val_main_v16 val_main_v15 val_main_c val_main_v18 val_main_v17 val_main_c_4
  rfl

end Cert.KernelIdeal.Hand

end
-- ==== Proof.Unwrap.lean ====
/-
  Contents moved between a tensor value's type and the type of the buffer that holds it.

  A function called from the host program (here the clamp `max(·, 1)`) is stated over values that carry their tensor
  type; at the call the caller's buffers are read, and the result written, through a transport along the equation
  "this buffer's type is that tensor type". For a named buffer that equation holds by computation, so the transport is the
  identity; inside the function a value is moved to a buffer and straight back, which is the identity for any reference.
-/
import proofs.«138084_j80693845557943_2_alg».proof.Proof.Prefix

noncomputable section

open Idealize.ShloMosaic

namespace Cert.KernelIdeal.Hand

open Cert.KernelIdeal

/-- Moving contents to a typed reference's own buffer type and back is the identity. -/
theorem ofBuf_toBuf {T : BufTy} (x : StableHlo.TRef sig T) (v : T.Contents (Elt Ideal)) : x.ofBuf (x.toBuf v) = v := by
  obtain ⟨r, h, _, _⟩ := x
  subst h
  rfl

/-! At a named buffer, whose type is known, each of the two moves is the identity by itself. -/

theorem toBuf_v7 (p1 : main_v7.ty = (⟨S50000, EltTy.f32⟩ : BufTy)) (p2 : main_v7.space ≠ .host) (p3 : main_v7.isScoped = false)
    (v : FArr S50000) : (StableHlo.TRef.of main_v7 p1 p2 p3).toBuf v = v := rfl
theorem ofBuf_v3 (p1 : main_v3.ty = (⟨S50000, EltTy.f32⟩ : BufTy)) (p2 : main_v3.space ≠ .host) (p3 : main_v3.isScoped = false)
    (v : FArr S50000) : (StableHlo.TRef.of main_v3 p1 p2 p3).ofBuf v = v := rfl
theorem ofBuf_cst_2 (p1 : main_cst_2.ty = (⟨S_, EltTy.f32⟩ : BufTy)) (p2 : main_cst_2.space ≠ .host) (p3 : main_cst_2.isScoped = false)
    (v : FArr S_) : (StableHlo.TRef.of main_cst_2 p1 p2 p3).ofBuf v = v := rfl
theorem toBuf_v9 (p1 : main_v9.ty = (⟨S50000, EltTy.f32⟩ : BufTy)) (p2 : main_v9.space ≠ .host) (p3 : main_v9.isScoped = false)
    (v : FArr S50000) : (StableHlo.TRef.of main_v9 p1 p2 p3).toBuf v = v := rfl
theorem ofBuf_v6 (p1 : main_v6.ty = (⟨S50000, EltTy.f32⟩ : BufTy)) (p2 : main_v6.space ≠ .host) (p3 : main_v6.isScoped = false)
    (v : FArr S50000) : (StableHlo.TRef.of main_v6 p1 p2 p3).ofBuf v = v := rfl
theorem ofBuf_cst_3 (p1 : main_cst_3.ty = (⟨S_, EltTy.f32⟩ : BufTy)) (p2 : main_cst_3.space ≠ .host) (p3 : main_cst_3.isScoped = false)
    (v : FArr S_) : (StableHlo.TRef.of main_cst_3 p1 p2 p3).ofBuf v = v := rfl

end Cert.KernelIdeal.Hand

end
-- ==== Proof.WindowNorm.lean ====
/-
  The normalising column, as the kernel's region finds it: the host operations before the region, read back in order,
  are the `factor` of Prefix.lean applied to the destination list as launched, re-shaped from a vector of 50000 entries
  to a column [50000, 1]. (The clamp is a called function; its operands pass through the transports of Unwrap.lean, which
  are removed first.)
-/
import proofs.«138084_j80693845557943_2_alg».proof.Proof.Gen.KernelIdeal.Frame
import proofs.«138084_j80693845557943_2_alg».proof.Proof.Unwrap
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ)

set_option maxHeartbeats 2000000 in
set_option maxRecDepth 8192 in
/-- The third operand array of the region is the vector of destination factors, as a column. -/
theorem V_norm (c : Dev nD) : (V m c main_v26 : S50000x1.Idx → EReal)
    = shapeCast S50000x1 (factor (m ((c : Thread nD τ).loc main_arg2))) shapeCasts_S50000_S50000x1 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  simp only [ofBuf_toBuf, toBuf_v9, ofBuf_v6, ofBuf_cst_3]
  all_goals rfl

end Cert.KernelIdeal.Hand

end
-- ==== Proof.Operands.lean ====
/-
  The region's computed operand arrays, read at coordinates.

  * The normalising column [50000, 1] at (P, 0) is the destination factor of node P (a vector re-shaped to a column keeps
    row-major positions), which is the reference's destination-factor stage at P.
  * The stacked 128 × 64 weights at (k, q), k < 64, is `W` at (k, q); at (64 + k, q) it is `Wr` at (k, q).
  * The bias row [1, 64] at (0, q) is b[q] + br[q].
-/
import proofs.«138084_j80693845557943_2_alg».proof.Proof.WindowsPlain
import proofs.«138084_j80693845557943_2_alg».proof.Proof.WindowNorm
import proofs.«138084_j80693845557943_2_alg».proof.Proof.LibKeepdims
import Idealize.ShloMosaic.Lib.ValueLayout

noncomputable section

open Idealize.ShloMosaic Idealize.ShloMosaic.TcCoe Idealize.SL.Sem

namespace Cert.KernelIdeal.Hand

open Cert.KernelIdeal Cert.KernelIdeal.Gen Idealize.ShloMosaic.ValueIdx

variable (m : (ℓ : Loc nD τ sig) → Buf (Elt Ideal) ℓ)

/-- Row P of the normalising column is the reference's destination factor of node P. -/
theorem norm_at (c : Dev nD) (P : Fin 50000) :
    (V m c main_v26 : S50000x1.Idx → EReal) (ix2 P (0 : Fin 1))
      = Cert.ReferenceIdeal.Read.val_main_v11 (F := Ideal) (m ((c : Thread nD τ).loc main_arg2)) (ix1 P) :=
  (congrFun (V_norm m c) (ix2 P (0 : Fin 1))).trans
    ((Cert.LibKeepdims.shapeCast_a_a1_apply _ shapeCasts_S50000_S50000x1 P (0 : Fin 1)).trans
      (congrFun (factor_eq_dst (m ((c : Thread nD τ).loc main_arg2))) (ix1 P)))

/-- The first 64 rows of the stacked weights are `W`. -/
theorem weights_top (c : Dev nD) (k q : Fin 64) :
    (V m c main_v27 : S128x64.Idx → EReal) (ix2 (⟨k.val, by have := k.isLt; omega⟩ : Fin 128) q)
      = (m ((c : Thread nD τ).loc main_arg3) : S64x64.Idx → EReal) (ix2 k q) :=
  (congrFun (V_weights m c) _).trans
    (concatenate_pair_apply_left 0 _ _ concatenates_S64x64_S64x64_S128x64_d0 _ rfl (ix2 k q)
      (fun d => match d with | ⟨0, _⟩ => rfl | ⟨1, _⟩ => rfl))

/-- The last 64 rows of the stacked weights are `Wr`. -/
theorem weights_bottom (c : Dev nD) (k q : Fin 64) :
    (V m c main_v27 : S128x64.Idx → EReal) (ix2 (⟨64 + k.val, by have := k.isLt; omega⟩ : Fin 128) q)
      = (m ((c : Thread nD τ).loc main_arg5) : S64x64.Idx → EReal) (ix2 k q) :=
  (congrFun (V_weights m c) _).trans
    (concatenate_pair_apply_right 0 _ _ concatenates_S64x64_S64x64_S128x64_d0 _ rfl rfl (ix2 k q)
      (fun d => match d with | ⟨0, _⟩ => fun h => absurd rfl h | ⟨1, _⟩ => fun _ => rfl)
      (Nat.add_comm _ _))

/-- Entry q of the bias row is entry q of the sum of the two bias vectors. -/
theorem bias_at (c : Dev nD) (q : Fin 64) :
    (V m c main_v29 : S1x64.Idx → EReal) (ix2 (0 : Fin 1) q)
      = addf (F := Ideal) (φ := .f32) (s := S64) (m ((c : Thread nD τ).loc main_arg4)) (m ((c : Thread nD τ).loc main_arg6)) (ix1 q) :=
  (congrFun (V_bias m c) _).trans (shapeCast_a_1a_apply _ shapeCasts_S64_S1x64 (0 : Fin 1) q)

end Cert.KernelIdeal.Hand

end
-- ==== Proof.Blocks.lean ====
/-
  From the ten grid points to the whole result array.

  Grid point t works on rows 5000·t … 5000·t + 4999: its aggregate, feature and normalising blocks are those rows of
  their arrays, the stacked weights and the bias row are seen whole at every point, and the block it writes back is
  those rows of the result. By BlockValue.lean every entry it writes is the layer's entry of the same row and column, so
  what point t writes back is the block of the layer array at t; the ten blocks cover all 50000 rows (row r lies in the
  block of point r / 5000), hence after the run the result array is the layer array.
-/
import proofs.«138084_j80693845557943_2_alg».proof.Proof.Gen.KernelIdeal.Value
import proofs.«138084_j80693845557943_2_alg».proof.Proof.BlockValue
import proofs.«138084_j80693845557943_2_alg».proof.Proof.Operands

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.GraphConv

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid point: the three row-blocked inputs and the output are at block
    (t, 0), the weights and the bias row at block (0, 0). Decided over the ten points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the arrays as the region finds them: the aggregate array, the reference's destination factors, and
    the five arguments. -/
abbrev target (c : Dev nD) : Mat 50000 64 :=
  layer (V m c main_v25) (Cert.ReferenceIdeal.Read.val_main_v11 (F := Ideal) (m ((c : Thread nD τ).loc main_arg2)))
    (m ((c : Thread nD τ).loc main_arg0)) (m ((c : Thread nD τ).loc main_arg3)) (m ((c : Thread nD τ).loc main_arg4))
    (m ((c : Thread nD τ).loc main_arg5)) (m ((c : Thread nD τ).loc main_arg6))

/-! ## Each input block, read off its array -/

/-- Row p of the aggregate block at point t is row 5000·t + p of the aggregate array. -/
theorem agg_block (c : Dev nD) (t : Fin cfg0.N) (p : Fin 5000) (k : Fin 64) (P : Fin 50000) (hP : P.val = t.val * 5000 + p.val) :
    (iblk m c 0 t : Vec Ideal S5000x64 .f32) (ix2 p k) = (V m c main_v25 : S50000x64.Idx → EReal) (ix2 P k) := by
  obtain ⟨e0, e1, -⟩ := idx_facts t
  unfold iblk
  rw [View.read_apply]
  show V m c main_v25 _ = V m c main_v25 _
  congr 1
  funext a
  apply Fin.ext
  match a with
  | ⟨0, _⟩ => show win0_0.index t (0 : Fin 2) * 5000 + 1 * p.val = P.val; rw [e0, hP]; omega
  | ⟨1, _⟩ => show win0_0.index t (1 : Fin 2) * 64 + 1 * k.val = k.val; rw [e1]; omega

/-- Row p of the feature block at point t is row 5000·t + p of the features. -/
theorem x_block (c : Dev nD) (t : Fin cfg0.N) (p : Fin 5000) (k : Fin 64) (P : Fin 50000) (hP : P.val = t.val * 5000 + p.val) :
    (iblk m c 1 t : Vec Ideal S5000x64 .f32) (ix2 p k) = (m ((c : Thread nD τ).loc main_arg0) : S50000x64.Idx → EReal) (ix2 P k) := by
  obtain ⟨-, -, e0, e1, -⟩ := idx_facts t
  unfold iblk
  rw [View.read_apply]
  show V m c main_arg0 _ = _
  rw [V_main_arg0]
  congr 1
  funext a
  apply Fin.ext
  match a with
  | ⟨0, _⟩ => show win0_1.index t (0 : Fin 2) * 5000 + 1 * p.val = P.val; rw [e0, hP]; omega
  | ⟨1, _⟩ => show win0_1.index t (1 : Fin 2) * 64 + 1 * k.val = k.val; rw [e1]; omega

/-- Row p of the normalising block at point t is row 5000·t + p of the normalising column. -/
theorem norm_block (c : Dev nD) (t : Fin cfg0.N) (p : Fin 5000) (P : Fin 50000) (hP : P.val = t.val * 5000 + p.val) :
    (iblk m c 2 t : Vec Ideal S5000x1 .f32) (ix2 p (0 : Fin 1)) = (V m c main_v26 : S50000x1.Idx → EReal) (ix2 P (0 : Fin 1)) := by
  obtain ⟨-, -, -, -, e0, e1, -⟩ := idx_facts t
  unfold iblk
  rw [View.read_apply]
  show V m c main_v26 _ = V m c main_v26 _
  congr 1
  funext a
  apply Fin.ext
  match a with
  | ⟨0, _⟩ => show win0_2.index t (0 : Fin 2) * 5000 + 1 * p.val = P.val; rw [e0, hP]; omega
  | ⟨1, _⟩ => show win0_2.index t (1 : Fin 2) * 1 + 1 * 0 = 0; omega

/-- The weights block at every point is the whole stacked array. -/
theorem weights_block (c : Dev nD) (t : Fin cfg0.N) (r : Fin 128) (q : Fin 64) :
    (iblk m c 3 t : Vec Ideal S128x64 .f32) (ix2 r q) = (V m c main_v27 : S128x64.Idx → EReal) (ix2 r q) := by
  obtain ⟨-, -, -, -, -, -, e0, e1, -⟩ := idx_facts t
  unfold iblk
  rw [View.read_apply]
  show V m c main_v27 _ = V m c main_v27 _
  congr 1
  funext a
  apply Fin.ext
  match a with
  | ⟨0, _⟩ => show win0_3.index t (0 : Fin 2) * 128 + 1 * r.val = r.val; rw [e0]; omega
  | ⟨1, _⟩ => show win0_3.index t (1 : Fin 2) * 64 + 1 * q.val = q.val; rw [e1]; omega

/-- The bias block at every point is the whole bias row. -/
theorem bias_block (c : Dev nD) (t : Fin cfg0.N) (q : Fin 64) :
    (iblk m c 4 t : Vec Ideal S1x64 .f32) (ix2 (0 : Fin 1) q) = (V m c main_v29 : S1x64.Idx → EReal) (ix2 (0 : Fin 1) q) := by
  obtain ⟨-, -, -, -, -, -, -, -, e0, e1, -⟩ := idx_facts t
  unfold iblk
  rw [View.read_apply]
  show V m c main_v29 _ = V m c main_v29 _
  congr 1
  funext a
  apply Fin.ext
  match a with
  | ⟨0, _⟩ => show win0_4.index t (0 : Fin 2) * 1 + 1 * 0 = 0; omega
  | ⟨1, _⟩ => show win0_4.index t (1 : Fin 2) * 64 + 1 * q.val = q.val; rw [e1]; omega

/-! ## What a point writes back -/

/-- The body's one store covers its whole block, so what it leaves there is its stored value. -/
theorem stored (x0 x1 : Vec Ideal S5000x64 .f32) (x2 : Vec Ideal S5000x1 .f32) (x3 : Vec Ideal S128x64 .f32)
    (x4 : Vec Ideal S1x64 .f32) : out0_5 x0 x1 x2 x3 x4 = k0_pay1 (F := Ideal) x0 x2 x1 x3 x4 := by
  unfold out0_5
  rw [View.canon_unit_zero hz]
  simp only [View.ld_unit_zero (S := S5000x64) hz, View.ld_unit_zero (S := S5000x1) hz, View.ld_unit_zero (S := S128x64) hz,
    View.ld_unit_zero (S := S1x64) hz]

/-- What point t writes back is block t of the layer array. -/
theorem flushed_eq (c : Dev nD) (t : Fin cfg0.N) :
    (dats m 0 c).flushed 5 t = ((cfg0.win 5).blk t).view.read (Elt Ideal) (target m c) := by
  rw [Value.flushed5]
  obtain ⟨-, -, -, -, -, -, -, -, -, -, e0, e1⟩ := idx_facts t
  have hN : cfg0.N = 10 := N_0
  funext j
  obtain ⟨p, q, rfl⟩ : ∃ (p : Fin 5000) (q : Fin 64), (j : S5000x64.Idx) = ix2 p q := ⟨j 0, j 1, eq_ix2 j⟩
  have hP : t.val * 5000 + p.val < 50000 := by have := t.isLt; have := p.isLt; omega
  show out0_5 (iblk m c 0 t) (iblk m c 1 t) (iblk m c 2 t) (iblk m c 3 t) (iblk m c 4 t) (ix2 p q)
      = target m c (((cfg0.win 5).blk t).view.emb (ix2 p q))
  have hemb : ((cfg0.win 5).blk t).view.emb (ix2 p q) = ix2 (⟨t.val * 5000 + p.val, hP⟩ : Fin 50000) q := by
    funext a
    apply Fin.ext
    match a with
    | ⟨0, _⟩ => show win0_5.index t (0 : Fin 2) * 5000 + 1 * p.val = t.val * 5000 + p.val; rw [e0]; omega
    | ⟨1, _⟩ => show win0_5.index t (1 : Fin 2) * 64 + 1 * q.val = q.val; rw [e1]; omega
  refine (congrFun (stored (iblk m c 0 t) (iblk m c 1 t) (iblk m c 2 t) (iblk m c 3 t) (iblk m c 4 t)) (ix2 p q)).trans ?_
  refine Eq.trans ?_ (congrArg (target m c) hemb.symm)
  exact Body.block_value (iblk m c 0 t) (iblk m c 1 t) (iblk m c 2 t) (iblk m c 3 t) (iblk m c 4 t)
    (V m c main_v25) (Cert.ReferenceIdeal.Read.val_main_v11 (F := Ideal) (m ((c : Thread nD τ).loc main_arg2)))
    (m ((c : Thread nD τ).loc main_arg0)) (m ((c : Thread nD τ).loc main_arg3)) (m ((c : Thread nD τ).loc main_arg4))
    (m ((c : Thread nD τ).loc main_arg5)) (m ((c : Thread nD τ).loc main_arg6)) p q ⟨t.val * 5000 + p.val, hP⟩
    (fun k => agg_block m c t p k _ rfl)
    (fun k => x_block m c t p k _ rfl)
    ((norm_block m c t p _ rfl).trans (norm_at m c _))
    (fun k => (weights_block m c t _ q).trans (weights_top m c k q))
    (fun k => (weights_block m c t _ q).trans (weights_bottom m c k q))
    ((bias_block m c t q).trans ((bias_at m c q).trans (addf_apply _ _ _)))

/-! ## The cover, and the array after the run -/

/-- An index of the result array is in point t's block iff each coordinate is in the block's range on its axis. -/
theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v30).slice (win0_5.rect t)).set ↔ _
  rw [View.set_slice_whole, Rect.mem_set_unit]
  exact Iff.rfl

/-- Every index of the result array is in the block of the point its row falls to: row r is written at point r / 5000. -/
theorem covered (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 64 ≤ (i 1).val ∧ (i 1).val < win0_5.index t (1 : Fin 2) * 64 + 64
    rw [e1]; omega

/-- After the run the result array is the layer array. -/
theorem final (c : Dev nD) : (dats m 0 c).arrAt 5 cfg0.N = target m c :=
  (dats m 0 c).arrAt_eq_of_cover 5 (target m c) (fun t _ => flushed_eq m c t) covered

/-- The kernel's run, read: the result array ends at the layer array, the seven arguments unchanged. -/
theorem run : θ_run defs (onTc (τ := τ) (main (F := Ideal))) ⟨m, fun _ => 0, ρ⟩ fun r => ∀ c : Dev nD,
      r.2.mem ((c : Thread nD τ).loc main_v30) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Hand

end
-- ==== Proof.WindowAgg.lean ====
/-
  The aggregate array, as the kernel's region finds it: the host operations before the region, read back in order, are
  the `aggregate` of Prefix.lean applied to the features and the two edge lists as launched. (The clamp in the source
  factor is a called function; its operands pass through the transports of Unwrap.lean, which are removed first.)
-/
import proofs.«138084_j80693845557943_2_alg».proof.Proof.Gen.KernelIdeal.Frame
import proofs.«138084_j80693845557943_2_alg».proof.Proof.Unwrap
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ)

set_option maxHeartbeats 2000000 in
set_option maxRecDepth 8192 in
/-- The first operand array of the region is the aggregate of the three arguments. -/
theorem V_agg (c : Dev nD) : (V m c main_v25 : S50000x64.Idx → EReal)
    = aggregate (m ((c : Thread nD τ).loc main_arg0)) (m ((c : Thread nD τ).loc main_arg1)) (m ((c : Thread nD τ).loc main_arg2)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  simp only [ofBuf_toBuf, toBuf_v7, ofBuf_v3, ofBuf_cst_2]
  all_goals rfl

end Cert.KernelIdeal.Hand

end
-- ==== Proof.PrefixAgg.lean ====
/-
  The aggregate of Prefix.lean is the reference's aggregate stage.

  First the narrowing and widening round the gather are dropped (at the exact reading they are the identity); what is left
  is, operation by operation, the reference's scatter-add of its gather of its scaled features at its wrapped indices.
-/
import proofs.«138084_j80693845557943_2_alg».proof.Proof.Prefix

noncomputable section

open Idealize.ShloMosaic

namespace Cert.KernelIdeal.Hand

open Cert.KernelIdeal Cert.KernelIdeal.Facts₀ Cert.ReferenceIdeal.Read

/-- The aggregate is the reference's aggregate stage. -/
theorem aggregate_eq (x : FArr S50000x64) (src dst : IArr S800000) : aggregate x src dst = val_main_v24 (F := Ideal) x src dst := by
  show Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 dst) _ = _
  rw [gather_through_narrowing]
  unfold val_main_v24 val_main_v22 val_main_cst_5 val_main_v23 val_main_v21
  rw [← scaled_eq x src, ← wrapped_eq src]
  rfl

end Cert.KernelIdeal.Hand

end
-- ==== Proof.RefLayer.lean ====
/-
  The reference's result, read one host operation at a time, is the layer of Spec.lean applied to
  the aggregated features (the scatter-add of the gathered, source-normalised feature rows), the destination
  normalising factors, the features, the two weight matrices and the two bias rows.

  At index (p, q): the two `dot_general`s are sums over k of row p times column q; the biases are broadcast from
  [64] through [1, 64] to every row; the normalising factor is broadcast from [50000] through [50000, 1] to every
  column.
-/
import proofs.«138084_j80693845557943_2_alg».proof.Proof.Gen.ReferenceIdeal.Read
import proofs.«138084_j80693845557943_2_alg».proof.Proof.Spec

noncomputable section

namespace Cert.ReferenceIdeal.Hand

open Cert.ReferenceIdeal Cert.ReferenceIdeal.Read Idealize.ShloMosaic Idealize.ShloMosaic.ValueIdx Cert.GraphConv

/-- The reference's last stage is the layer of its aggregate stage and its normalising-factor stage. -/
theorem result_eq_layer (x0 : (⟨S50000x64, .f32⟩ : BufTy).Contents (Elt Ideal)) (x1 x2 : (⟨S800000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v35 (F := Ideal) x0 x1 x2 x3 x4 x5 x6
      = layer (val_main_v24 (F := Ideal) x0 x1 x2) (val_main_v11 (F := Ideal) x2) x0 x3 x4 x5 x6 := by
  funext i
  obtain ⟨p, q, rfl⟩ : ∃ (p : Fin 50000) (q : Fin 64), i = ix2 p q := ⟨i 0, i 1, eq_ix2 i⟩
  have e1 : ∀ k : Fin 64, lidx_main_v27 (ix2 p q) k = ix2 p k := fun k =>
    funext fun a => Fin.ext (by match a with | ⟨0, _⟩ => rfl | ⟨1, _⟩ => rfl)
  have e2 : ∀ k : Fin 64, ridx_main_v27 (ix2 p q) k = ix2 k q := fun k =>
    funext fun a => Fin.ext (by match a with | ⟨0, _⟩ => rfl | ⟨1, _⟩ => rfl)
  have e3 : ∀ k : Fin 64, lidx_main_v31 (ix2 p q) k = ix2 p k := fun k =>
    funext fun a => Fin.ext (by match a with | ⟨0, _⟩ => rfl | ⟨1, _⟩ => rfl)
  have e4 : ∀ k : Fin 64, ridx_main_v31 (ix2 p q) k = ix2 k q := fun k =>
    funext fun a => Fin.ext (by match a with | ⟨0, _⟩ => rfl | ⟨1, _⟩ => rfl)
  have e5 : idx_main_v28 (idx_main_v29 (ix2 p q)) = ix1 q :=
    funext fun a => Fin.ext (by match a with | ⟨0, _⟩ => rfl)
  have e6 : idx_main_v32 (idx_main_v33 (ix2 p q)) = ix1 q :=
    funext fun a => Fin.ext (by match a with | ⟨0, _⟩ => rfl)
  have e7 : ∀ k : Fin 64, idx_main_v12 (idx_main_v25 (ix2 p k)) = ix1 p := fun k =>
    funext fun a => Fin.ext (by match a with | ⟨0, _⟩ => rfl)
  rw [layer_ix2, val_main_v35_apply, val_main_v30_apply, val_main_v34_apply, val_main_v27_apply, val_main_v31_apply,
    val_main_v29_apply, val_main_v28_apply, val_main_v33_apply, val_main_v32_apply, e5, e6]
  -- the first product's summand: the aggregate entry times the row's factor, times the weight entry
  have s1 : (∑ k : Fin 64, val_main_v26 (F := Ideal) x0 x1 x2 (lidx_main_v27 (ix2 p q) k) * x3 (ridx_main_v27 (ix2 p q) k))
      = ∑ k : Fin 64, (val_main_v24 (F := Ideal) x0 x1 x2 (ix2 p k) * val_main_v11 (F := Ideal) x2 (ix1 p)) * x3 (ix2 k q) :=
    Finset.sum_congr rfl fun k _ => by
      rw [e1, e2, val_main_v26_apply, val_main_v25_apply, val_main_v12_apply, e7]
      generalize val_main_v24 (F := Ideal) x0 x1 x2 (ix2 p k) = a
      generalize val_main_v11 (F := Ideal) x2 (ix1 p) = f
      rfl
  -- the second product's summand: the feature entry times the weight entry
  have s2 : (∑ k : Fin 64, x0 (lidx_main_v31 (ix2 p q) k) * x5 (ridx_main_v31 (ix2 p q) k))
      = ∑ k : Fin 64, x0 (ix2 p k) * x5 (ix2 k q) :=
    Finset.sum_congr rfl fun k _ => by rw [e3, e4]
  rw [s1, s2]
  unfold layerAt
  generalize (∑ k : Fin 64, (val_main_v24 (F := Ideal) x0 x1 x2 (ix2 p k) * val_main_v11 (F := Ideal) x2 (ix1 p)) * x3 (ix2 k q)) = S1
  generalize (∑ k : Fin 64, x0 (ix2 p k) * x5 (ix2 k q)) = S2
  rfl

end Cert.ReferenceIdeal.Hand

end
-- ==== Proof.lean ====
/-
  A graph-convolution layer with a linear residual: the fused arrangement against the plain one, over the extended reals.

  Both programs first compute, from the features x [50000, 64] and the edge lists src, dst [800000], the out- and
  in-degree of every node (scatter-adds of ones), their clamps below by 1 and reciprocal square roots, the features
  scaled row by row with the source factor, the scaled rows gathered at src and scatter-added at dst: the aggregate
  agg [50000, 64]. One program narrows the scaled rows to a shorter float format before the gather and widens them after
  it; at the exact reading of the floats that changes nothing, so the two aggregates are one array, and so are the two
  vectors of destination factors nd (Prefix.lean; WindowAgg.lean and WindowNorm.lean read them off the host operations).

  From there the plain arrangement computes, at row P and column q,

      (∑ₖ (agg[P,k] · nd[P]) · W[k,q] + b[q])  +  (∑ₖ x[P,k] · Wr[k,q] + br[q]),

  and the fused one, in ten blocks of 5000 rows, contracts the row [agg[P,·] · nd[P] | x[P,·]] of 128 entries with the
  128 × 64 stack [W ; Wr] and adds the one row b + br:

      (∑ₖ (agg[P,k] · nd[P]) · W[k,q]  +  ∑ₖ x[P,k] · Wr[k,q])  +  (b[q] + br[q]).

  A sum over 128 positions is the sum over the first 64 plus the sum over the last 64, and
  (A + B) + (b + b') = (A + b) + (B + b') in any commutative monoid, the extended reals with their infinities included
  (SumSplit.lean, Spec.lean): no finiteness of the inputs is used. Payload.lean reads the fused body's stored value at a
  coordinate pair, BlockValue.lean sets it against the layer, Operands.lean reads the stacked weights, the bias row and the
  normalising column, Blocks.lean goes from the ten blocks to the whole array, RefLayer.lean reads the plain arrangement.
  Neither program's idealization rewrote anything, so there is nothing to preserve beyond the frames.
-/
import proofs.«138084_j80693845557943_2_alg».proof.Defs
import proofs.«138084_j80693845557943_2_alg».proof.Proof.Gen.Kernel
import proofs.«138084_j80693845557943_2_alg».proof.Proof.Gen.Kernel.Skeleton
import proofs.«138084_j80693845557943_2_alg».proof.Proof.Gen.Kernel.Launch
import proofs.«138084_j80693845557943_2_alg».proof.Proof.Gen.Kernel.Points
import proofs.«138084_j80693845557943_2_alg».proof.Proof.Gen.Kernel.Frame
import proofs.«138084_j80693845557943_2_alg».proof.Proof.Gen.KernelIdeal
import proofs.«138084_j80693845557943_2_alg».proof.Proof.Gen.KernelIdeal.Skeleton
import proofs.«138084_j80693845557943_2_alg».proof.Proof.Gen.KernelIdeal.Launch
import proofs.«138084_j80693845557943_2_alg».proof.Proof.Gen.KernelIdeal.Points
import proofs.«138084_j80693845557943_2_alg».proof.Proof.Gen.KernelIdeal.Frame
import proofs.«138084_j80693845557943_2_alg».proof.Proof.Gen.ReferenceIdeal
import proofs.«138084_j80693845557943_2_alg».proof.Proof.Gen.Pre_finite_inputs
import proofs.«138084_j80693845557943_2_alg».proof.Proof.Gen.KernelIdeal.Value
import proofs.«138084_j80693845557943_2_alg».proof.Proof.Gen.ReferenceIdeal.Run
import proofs.«138084_j80693845557943_2_alg».proof.Proof.Gen.ReferenceIdeal.Read
import proofs.«138084_j80693845557943_2_alg».proof.Proof.Blocks
import proofs.«138084_j80693845557943_2_alg».proof.Proof.WindowAgg
import proofs.«138084_j80693845557943_2_alg».proof.Proof.PrefixAgg
import proofs.«138084_j80693845557943_2_alg».proof.Proof.RefLayer
import Idealize.ShloMosaic.Adequacy
import Idealize.ShloMosaic.Init

noncomputable section

namespace Cert.Proof

open Idealize.ShloMosaic Idealize.ShloMosaic.TcCoe Idealize.SL.Sem

/-- Every weakly fair execution of the word-level kernel terminates without a fault and leaves its arguments as they were. -/
theorem frame_kernel : Cert.frame_Kernel := fun m ρ _ => Cert.Kernel.Gen.frame m ρ

/-- The same for the kernel read at the extended reals. -/
theorem frame_kernelIdeal : Cert.frame_KernelIdeal := fun m ρ _ => Cert.KernelIdeal.Gen.frame m ρ

/-- The same for the plain arrangement: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the word-level kernel and its exact reading. -/
theorem preserves : Cert.preserves_Kernel_KernelIdeal := trivial

/-- From memories that agree on the seven arguments both programs end with the layer array: the fused one by
    Blocks.lean, the plain one by RefLayer.lean, over one aggregate array (WindowAgg.lean). -/
theorem algebraic : Cert.algebraic_KernelIdeal_ReferenceIdeal := by
  intro m ρ m' ρ' _ hagree
  refine ⟨fun c => Cert.KernelIdeal.Hand.target m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  refine (Cert.ReferenceIdeal.Read.val_main_v35_eq _ _ _ _ _ _ _).trans ?_
  refine (Cert.ReferenceIdeal.Hand.result_eq_layer _ _ _ _ _ _ _).trans ?_
  show Cert.GraphConv.layer _ _ _ _ _ _ _ = Cert.GraphConv.layer _ _ _ _ _ _ _
  rw [Cert.KernelIdeal.Hand.V_agg m c, Cert.KernelIdeal.Hand.aggregate_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
